-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S131072 : Shape := ⟨1, ![131072]⟩
abbrev S2x131072 : Shape := ⟨2, ![2, 131072]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S4x4096x1024 .f32) (main_arg1 : FVec F S131072 .f32) (main_arg2 : IVec S2x131072 32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S131072 .f32 := Host.absf main_arg1
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  main_v8
-- ==== Kernel.lean ====
abbrev S4x4096x1024 : Shape := ⟨3, ![4, 4096, 1024]⟩
abbrev S131072 : Shape := ⟨1, ![131072]⟩
abbrev S2x131072 : Shape := ⟨2, ![2, 131072]⟩
abbrev S1x131072 : Shape := ⟨2, ![1, 131072]⟩
abbrev S_ : Shape := ⟨0, ![]⟩
abbrev S1024x1024 : Shape := ⟨2, ![1024, 1024]⟩
abbrev S131072x1 : Shape := ⟨2, ![131072, 1]⟩
abbrev S131072x2 : Shape := ⟨2, ![131072, 2]⟩
abbrev S16384x1024 : Shape := ⟨2, ![16384, 1024]⟩

abbrev nBuf : Space → Nat
  | .hbm => 31
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S131072, .f32⟩
  | .hbm, ⟨2, _⟩ => ⟨S2x131072, .i32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S1024x1024, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S1024x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S1024x1024 : S_.BroadcastsInDim S1024x1024 (![] : Fin 0 → Fin S1024x1024.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  transposes_S1024x1024_S1024x1024_1_0 : S1024x1024.Transposes [1, 0] S1024x1024
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S16384x1024_S4x4096x1024 : S16384x1024.ShapeCasts S4x4096x1024
  scatter_S1024x1024_S131072x2_S131072_n_01_01_1_wf : ScatterDims.WF S1024x1024 S131072x2 S131072 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def scatter_S1024x1024_S131072x2_S131072_n_01_01_1 : ScatterDims S1024x1024 S131072x2 S131072 where
  updateWindowDims := []
  insertedWindowDims := [0, 1]
  scatterDimsToOperandDims := [0, 1]
  indexVectorDim := 1
  wf := scatter_S1024x1024_S131072x2_S131072_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v20) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S131072 : Shape := ⟨1, ![131072]⟩
abbrev S2x131072 : Shape := ⟨2, ![2, 131072]⟩
abbrev S1x131072 : Shape := ⟨2, ![1, 131072]⟩
abbrev S_ : Shape := ⟨0, ![]⟩
abbrev S1024x1024 : Shape := ⟨2, ![1024, 1024]⟩
abbrev S131072x1 : Shape := ⟨2, ![131072, 1]⟩
abbrev S131072x2 : Shape := ⟨2, ![131072, 2]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S131072, .f32⟩
  | .hbm, ⟨2, _⟩ => ⟨S2x131072, .i32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S1024x1024, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S1024x1024, .f32⟩
  | .hbm, ⟨27, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S1024x1024 : S_.BroadcastsInDim S1024x1024 (![] : Fin 0 → Fin S1024x1024.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  scatter_S1024x1024_S131072x2_S131072_n_01_01_1_wf : ScatterDims.WF S1024x1024 S131072x2 S131072 [] [0, 1] [0, 1] 1
  dot_S4x4096x1024_S1024x1024_S4x4096x1024_2_1_01_0_n_n_wf : DotDims.WF S4x4096x1024 S1024x1024 S4x4096x1024 [2] [1] [0, 1] [0] [] []

variable [Facts₀]

def scatter_S1024x1024_S131072x2_S131072_n_01_01_1 : ScatterDims S1024x1024 S131072x2 S131072 where
  updateWindowDims := []
  insertedWindowDims := [0, 1]
  scatterDimsToOperandDims := [0, 1]
  indexVectorDim := 1
  wf := scatter_S1024x1024_S131072x2_S131072_n_01_01_1_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.BodyValue.lean ====
/-
  The kernel body's arithmetic, read at an index.

  At a grid point the body loads a block of 1024 flattened activation rows (`a`) and the whole
  transposed weight matrix (`B`), narrows both to bf16 — at the ideal instance a change of format is
  the identity — and multiplies them into a zero accumulator.  Entry `(p, o)` of what it stores is
  therefore the plain sum `Σ_c a[p, c] · B[c, o]`.
-/
import proofs.«125782_j52518860095721_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BodyValue

open Cert.KernelIdeal Cert.KernelIdeal.Gen
open Idealize.ShloMosaic Idealize.ShloMosaic.ValueIdx

/-- The matrix product's dimension numbers: rows of the left factor against columns of the right. -/
private abbrev D := dot_S1024x1024_S1024x1024_S1024x1024_1_0_0_1_n_n

theorem lhs_row (j : S1024x1024.Idx) (q : D.contr.Idx) : (D.lhsIdx j q 0).val = (j 0).val := by
  unfold DotDims.lhsIdx
  rw [dif_neg (show ¬(0 : Fin S1024x1024.rank) ∈ D.lhsBatch by decide),
    dif_pos (show (0 : Fin S1024x1024.rank) ∈ D.lhsNonContracting by decide)]
  rfl

theorem lhs_contr (j : S1024x1024.Idx) (q : D.contr.Idx) : (D.lhsIdx j q 1).val = (q ⟨0, by decide⟩).val :=
  D.lhsIdx_val_of_single rfl j q

theorem rhs_contr (j : S1024x1024.Idx) (q : D.contr.Idx) : (D.rhsIdx j q 0).val = (q ⟨0, by decide⟩).val :=
  D.rhsIdx_val_of_single rfl j q

theorem rhs_col (j : S1024x1024.Idx) (q : D.contr.Idx) : (D.rhsIdx j q 1).val = (j 1).val := by
  unfold DotDims.rhsIdx
  rw [dif_neg (show ¬(1 : Fin S1024x1024.rank) ∈ D.rhsBatch by decide),
    dif_pos (show (1 : Fin S1024x1024.rank) ∈ D.rhsNonContracting by decide)]
  rfl

/-- What the body stores, entry by entry: rows of the activation block against columns of the transposed
    weights, summed over the 1024 input channels. -/
theorem stored_apply (a B : Vec Ideal S1024x1024 .f32) (j : S1024x1024.Idx) :
    k0_pay1 (F := Ideal) a B j = ∑ c : Fin 1024, a (ix2 (j 0) c) * B (ix2 c (j 1)) := by
  unfold k0_pay1
  refine (Ideal.matmul_constant_zero_apply D none _ _ j).trans ?_
  rw [← Equiv.sum_comp (contrEquiv1 D 1024 rfl rfl).symm]
  refine Finset.sum_congr rfl fun c _ => ?_
  have hc := contrEquiv1_symm_val D 1024 rfl rfl c
  have el : D.lhsIdx j ((contrEquiv1 D 1024 rfl rfl).symm c) = ix2 (j 0) c := funext fun d => Fin.ext (by
    match d with
    | ⟨0, _⟩ => exact lhs_row _ _
    | ⟨1, _⟩ => exact (lhs_contr _ _).trans hc)
  have er : D.rhsIdx j ((contrEquiv1 D 1024 rfl rfl).symm c) = ix2 c (j 1) := funext fun d => Fin.ext (by
    match d with
    | ⟨0, _⟩ => exact (rhs_contr _ _).trans hc
    | ⟨1, _⟩ => exact rhs_col _ _)
  rw [el, er]
  show shapeCast S1024x1024 a shapeCasts_S1024x1024_S1024x1024 (ix2 (j 0) c)
      * shapeCast S1024x1024 B shapeCasts_S1024x1024_S1024x1024 (ix2 c (j 1)) = _
  rw [shapeCast_self, shapeCast_self]

end Cert.KernelIdeal.BodyValue

end
-- ==== Proof.SparseLinear.lean ====
/-
  The mathematics of the certificate, with no program in sight.

  A sparse weight matrix `W` (1024 output channels by 1024 input channels) acts on a batch of
  activations `x` (4 by 4096 positions, 1024 input channels each):

      out[b, l, o] = Σ_c  x[b, l, c] · W[o, c].                                   (`applyWeights`)

  One program computes exactly this contraction.  The other first flattens the batch and position
  axes of `x` into 16384 rows, transposes `W`, multiplies rows by columns,

      rows[r, o] = Σ_c  a[r, c] · B[c, o],                                        (`rowsByColumns`)

  and un-flattens the result.  Row `r = b · 4096 + l` of the flattened activations is position
  `(b, l)` of `x`, and entry `(c, o)` of the transpose is entry `(o, c)` of `W`, so the two sums have
  the same terms in the same order: the law needs no algebra on the extended reals at all, only the
  reading of a reshape and of a transpose at an index (`unflatten_rowsByColumns`).
-/
import Idealize.ShloMosaic.PureOps.Ideal
import Idealize.ShloMosaic.PureOps.Ideal.Laws
import Idealize.ShloMosaic.Lib.ValueIdx
import Idealize.ShloMosaic.Lib.Pipeline.Value

noncomputable section

namespace Cert.SparseLinear

open Idealize.ShloMosaic Idealize.ShloMosaic.ValueIdx

/-- Activations: batch, position, input channel. -/
abbrev Sx : Shape := ⟨3, ![4, 4096, 1024]⟩
/-- A square weight matrix, 1024 by 1024. -/
abbrev Sw : Shape := ⟨2, ![1024, 1024]⟩
/-- The activations with batch and position flattened into rows. -/
abbrev Sr : Shape := ⟨2, ![16384, 1024]⟩

/-- The linear layer: entry `(b, l, o)` is the sum over input channels `c` of `x[b, l, c] · W[o, c]`. -/
def applyWeights (x : Sx.Idx → EReal) (W : Sw.Idx → EReal) : Sx.Idx → EReal :=
  fun i => ∑ c : Fin 1024, x (ix3 (i 0) (i 1) c) * W (ix2 (i 2) c)

/-- Rows times columns: entry `(r, o)` is the sum over `c` of `a[r, c] · B[c, o]`. -/
def rowsByColumns (a : Sr.Idx → EReal) (B : Sw.Idx → EReal) : Sr.Idx → EReal :=
  fun j => ∑ c : Fin 1024, a (ix2 (j 0) c) * B (ix2 c (j 1))

/-- Flatten, multiply by the transposed weights, un-flatten: the linear layer.  At `(b, l, o)` the
    un-flattened product reads row `b · 4096 + l`, column `o`; that row of the flattened activations
    is `x[b, l, ·]` and that column of the transpose is `W[o, ·]`. -/
theorem unflatten_rowsByColumns (x : Sx.Idx → EReal) (W : Sw.Idx → EReal)
    (hflat : Sx.ShapeCasts Sr) (htr : Sw.Transposes [1, 0] Sw) (hunflat : Sr.ShapeCasts Sx) :
    shapeCast Sx (rowsByColumns (shapeCast Sr x hflat) (transpose Sw [1, 0] W htr)) hunflat = applyWeights x W := by
  funext i
  have h0 : (i 0).val < 4 := (i 0).isLt
  have h1 : (i 1).val < 4096 := (i 1).isLt
  have h2 : (i 2).val < 1024 := (i 2).isLt
  rw [shapeCast_apply _ hunflat i (ix2 ⟨(i 0).val * 4096 + (i 1).val, by omega⟩ (i 2))
    (by rw [Shape.rowMajor_val_two, Shape.rowMajor_val_three]
        show ((i 0).val * 4096 + (i 1).val) * 1024 + (i 2).val = ((i 0).val * 4096 + (i 1).val) * 1024 + (i 2).val
        rfl)]
  unfold rowsByColumns applyWeights
  refine Finset.sum_congr rfl fun c _ => ?_
  congr 1
  · exact shapeCast_apply x hflat _ (ix3 (i 0) (i 1) c)
      (by rw [Shape.rowMajor_val_three, Shape.rowMajor_val_two]
          show ((i 0).val * 4096 + (i 1).val) * 1024 + c.val = ((i 0).val * 4096 + (i 1).val) * 1024 + c.val
          rfl)
  · exact transpose_apply [1, 0] W htr _ (ix2 (i 2) c) (fun b => match b with
      | ⟨0, _⟩ => rfl
      | ⟨1, _⟩ => rfl)

end Cert.SparseLinear

end
-- ==== Proof.KernelBlocks.lean ====
/-
  From what each grid point writes back to the whole product array.

  The grid has 16 points.  Point `t` reads rows `1024·t … 1024·t + 1023` of the flattened
  activations (its first block), the WHOLE transposed weight matrix (its second block: the block index
  is `(0, 0)` at every point and the block is the matrix), and writes rows `1024·t … 1024·t + 1023`
  of the product.  Entry `(p, o)` of what it writes is `Σ_c a[1024·t + p, c] · B[c, o]`: row
  `1024·t + p`, column `o` of ONE whole-array function of the two arrays as the region finds them
  (`rowsByColumns`).  The sixteen row blocks tile the 16384 rows (row `r` is in block `r / 1024`), so
  after the last write-back the array IS that function.
-/
import proofs.«125782_j52518860095721_1_alg».proof.Proof.Gen.KernelIdeal.Frame
import proofs.«125782_j52518860095721_1_alg».proof.Proof.BodyValue
import proofs.«125782_j52518860095721_1_alg».proof.Proof.SparseLinear
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.BodyValue
open Idealize.ShloMosaic.ValueIdx Cert.SparseLinear

variable (m : (ℓ : Loc nD τ sig) → Buf (Elt Ideal) ℓ) (ρ : Dev nD → PrngReg)

theorem offsets_zero : (![0, 0] : Fin 2 → Nat) = fun _ => 0 := funext fun a => by fin_cases a <;> rfl

/-- The three index maps over the grid: the activation block and the product block of point `t` are row
    block `t`; the weight block is always block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the two arrays the region finds: the flattened activations and the transposed weights. -/
abbrev product (c : Dev nD) : S16384x1024.Idx → EReal :=
  rowsByColumns (V m c main_v20) (V m c main_v19)

/-- What point `t` writes back is row block `t` of the product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero offsets_zero]
  simp only [View.ld_unit_zero (S := S1024x1024) offsets_zero]
  obtain ⟨e0, e1, e2, e3, e4, e5⟩ := block_indices t
  funext y
  refine (stored_apply (iblk m c 0 t) (iblk m c 1 t) y).trans ?_
  show _ = rowsByColumns (V m c main_v20) (V m c main_v19) (((cfg0.win 2).blk t).view.emb y)
  unfold rowsByColumns
  refine Finset.sum_congr rfl fun k _ => ?_
  have ha : iblk m c 0 t (ix2 (y 0) k) = V m c main_v20 (ix2 ((((cfg0.win 2).blk t).view.emb y) 0) k) := by
    show V m c main_v20 (((cfg0.win 0).blk t).view.emb (ix2 (y 0) k)) = _
    refine congrArg _ (funext fun a => Fin.ext ?_)
    match a with
    | ⟨0, _⟩ =>
      show win0_0.index t (0 : Fin 2) * 1024 + 1 * (y 0).val = win0_2.index t (0 : Fin 2) * 1024 + 1 * (y 0).val
      omega
    | ⟨1, _⟩ =>
      show win0_0.index t (1 : Fin 2) * 1024 + 1 * k.val = k.val
      omega
  have hb : iblk m c 1 t (ix2 k (y 1)) = V m c main_v19 (ix2 k ((((cfg0.win 2).blk t).view.emb y) 1)) := by
    show V m c main_v19 (((cfg0.win 1).blk t).view.emb (ix2 k (y 1))) = _
    refine congrArg _ (funext fun a => Fin.ext ?_)
    match a with
    | ⟨0, _⟩ =>
      show win0_1.index t (0 : Fin 2) * 1024 + 1 * k.val = k.val
      omega
    | ⟨1, _⟩ =>
      show win0_1.index t (1 : Fin 2) * 1024 + 1 * (y 1).val = win0_2.index t (1 : Fin 2) * 1024 + 1 * (y 1).val
      omega
  rw [ha, hb]

/-- An index of the product array lies in point `t`'s block iff each coordinate lies in the block's range. -/
theorem mem_block (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v21).slice (win0_2.rect t)).set ↔ _
  rw [View.set_slice_whole, Rect.mem_set_unit]
  exact Iff.rfl

/-- Every row of the product is written by some point: row `r` by point `r / 1024`. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 16 := N_0
  let t : Fin cfg0.N := ⟨(i 0).val / 1024, by rw [hN]; omega⟩
  obtain ⟨e0, e1, e2, e3, e4, e5⟩ := block_indices t
  have ht : t.val = (i 0).val / 1024 := rfl
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The product array after the run: the product of the two arrays the region found. -/
theorem final (c : Dev nD) : (dats m 0 c).arrAt 2 cfg0.N = product m c :=
  (dats m 0 c).arrAt_eq_of_cover 2 (product m c) (fun t _ => flushed_eq m c t) covered

end Cert.KernelIdeal.Blocks

end
-- ==== Proof.HostSide.lean ====
/-
  The host operations around the kernel's region, read as values.

  Before the region the program builds the dense weight matrix from the sparse triples exactly as the
  reference does — the same slices of the coordinate array, the same wrap of negative coordinates, the
  same scatter-add into a zero matrix — so the matrix is the reference's own term `W` of the same
  arguments, and it is never opened.  It then transposes `W` (the region's second array) and flattens
  the activations' batch and position axes into rows (the region's first array).  After the region one
  reshape un-flattens the product's rows back into batch and position.
-/
import proofs.«125782_j52518860095721_1_alg».proof.Proof.Gen.KernelIdeal.Frame
import proofs.«125782_j52518860095721_1_alg».proof.Proof.Gen.ReferenceIdeal.Read
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.HostSide

open Cert.KernelIdeal Cert.KernelIdeal.Gen
open Idealize.ShloMosaic.ValueIdx

variable (m : (ℓ : Loc nD τ sig) → Buf (Elt Ideal) ℓ) (ρ : Dev nD → PrngReg)

/-- The region's first array is the activations with batch and position flattened into 16384 rows. -/
theorem flattened (c : Dev nD) :
    (V m c main_v20 : S16384x1024.Idx → EReal)
      = shapeCast S16384x1024 (m ((c : Thread nD τ).loc main_arg0)) shapeCasts_S4x4096x1024_S16384x1024 := by
  show StableHlo.after hostOps0 (fun b => m (c, b)) (Proc.devRef .tc main_v20) = _
  after_results
  rfl

set_option maxHeartbeats 2000000 in
/-- The region's second array is the transpose of the dense weight matrix, and that matrix is the one the
    reference builds from the same values and coordinates: the two programs' scatter-adds are one term. -/
theorem transposed (c : Dev nD) :
    (V m c main_v19 : S1024x1024.Idx → EReal)
      = transpose S1024x1024 [1, 0]
          (Cert.ReferenceIdeal.Read.val_main_v18 (F := Ideal) (m ((c : Thread nD τ).loc main_arg1)) (m ((c : Thread nD τ).loc main_arg2)))
          transposes_S1024x1024_S1024x1024_1_0 := by
  show StableHlo.after hostOps0 (fun b => m (c, b)) (Proc.devRef .tc main_v19) = _
  after_results_simp
  rfl

/-- The program's result is the product array after the run, its rows un-flattened into batch and position. -/
theorem unflattened (c : Dev nD) :
    Pipeline.afterTail₀ cfgs (dats m) 0 (V0 m) [hostOps1] c main_v22
      = shapeCast S4x4096x1024 ((dats m 0 c).arrAt 2 cfg0.N) shapeCasts_S16384x1024_S4x4096x1024 := by
  unfold Pipeline.afterTail₀
  show StableHlo.after hostOps1 _ (Proc.devRef .tc main_v22) = _
  after_results
  have hw : Pipeline.withArrays (cfgs 0).spec c (V0 m c) (fun w => (dats m 0 c).arrAt w (cfgs 0).N) (Proc.devRef .tc main_v21)
      = (dats m 0 c).arrAt 2 cfg0.N :=
    Pipeline.withArrays_arr spec0 launch0.win.arr_inj c (V0 m c) (fun w => (dats m 0 c).arrAt w cfg0.N) 2
  rw [hw]
  rfl

end Cert.KernelIdeal.HostSide

end
-- ==== Proof.KernelValue.lean ====
/-
  The kernel program's run, read as a value.

  Its result is the un-flattened product of the flattened activations with the transposed dense weight
  matrix; by the reading of a reshape and a transpose at an index that is the linear layer
  `out[b, l, o] = Σ_c x[b, l, c] · W[o, c]` of the activations `x` and the dense matrix `W` built from the
  sparse triples — `W` spelt as the reference spells it.
-/
import proofs.«125782_j52518860095721_1_alg».proof.Proof.KernelBlocks
import proofs.«125782_j52518860095721_1_alg».proof.Proof.HostSide

noncomputable section

open Idealize.ShloMosaic Idealize.ShloMosaic.TcCoe Idealize.SL.Sem

namespace Cert.KernelIdeal.KernelValue

open Cert.KernelIdeal Cert.KernelIdeal.Gen Cert.SparseLinear

variable (m : (ℓ : Loc nD τ sig) → Buf (Elt Ideal) ℓ) (ρ : Dev nD → PrngReg)

/-- The linear layer of the program's own arguments. -/
abbrev layer (c : Dev nD) : Buf (Elt Ideal) ((c.tc : Thread nD τ).loc main_v22) :=
  applyWeights (m ((c.tc : Thread nD τ).loc main_arg0))
    (Cert.ReferenceIdeal.Read.val_main_v18 (F := Ideal) (m ((c.tc : Thread nD τ).loc main_arg1)) (m ((c.tc : Thread nD τ).loc main_arg2)))

/-- What the lines after the region leave in the result buffer is the linear layer. -/
theorem result (c : Dev nD) :
    Pipeline.afterTail₀ cfgs (dats m) 0 (V0 m) [hostOps1] c main_v22 = layer m c := by
  rw [HostSide.unflattened, Blocks.final]
  unfold Blocks.product
  rw [HostSide.flattened, HostSide.transposed]
  exact unflatten_rowsByColumns _ _ _ _ _

/-- Every weakly fair execution of the kernel program terminates with the result buffer at the linear layer of
    its arguments and the arguments unchanged. -/
theorem run : θ_run defs (onTc (τ := τ) (main (F := Ideal))) ⟨m, fun _ => 0, ρ⟩ fun r => ∀ c : Dev nD,
      r.2.mem ((c.tc : Thread nD τ).loc main_v22) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefLinear.lean ====
/-
  The reference program's result, read at an index.

  The reference builds the dense weight matrix `W` from the sparse triples (a scatter-add into a zero
  matrix) and contracts the activations' channel axis against `W`'s input-channel axis.  Read at
  `(b, l, o)`, the contraction's left factor sits at `(b, l, c)` and its right factor at `(o, c)`:
  that is the linear layer of the specification, with `W` left unopened — whatever the scatter-add
  produces, both programs produce the same matrix from the same arguments.
-/
import proofs.«125782_j52518860095721_1_alg».proof.Proof.Gen.ReferenceIdeal.Read
import proofs.«125782_j52518860095721_1_alg».proof.Proof.SparseLinear

noncomputable section

namespace Cert.ReferenceIdeal.RefValue

open Cert.ReferenceIdeal Cert.ReferenceIdeal.Gen Cert.ReferenceIdeal.Read
open Idealize.ShloMosaic Idealize.ShloMosaic.ValueIdx Cert.SparseLinear

/-- The reference's result is the linear layer of its activations `x` and of the dense matrix it builds
    from the values `vals` and the coordinates `coords`: entry `(b, l, o)` is `Σ_c x[b, l, c] · W[o, c]`. -/
theorem result_eq (x : (⟨S4x4096x1024, .f32⟩ : BufTy).Contents (Elt Ideal))
    (vals : (⟨S131072, .f32⟩ : BufTy).Contents (Elt Ideal))
    (coords : (⟨S2x131072, .i32⟩ : BufTy).Contents (Elt Ideal)) :
    val_main_v19 (F := Ideal) x vals coords = applyWeights x (val_main_v18 (F := Ideal) vals coords) := by
  funext i
  rw [val_main_v19_apply]
  unfold applyWeights
  refine Finset.sum_congr rfl fun c _ => ?_
  have el : lidx_main_v19 i c = ix3 (i 0) (i 1) c := funext fun a => Fin.ext (by
    match a with
    | ⟨0, _⟩ => rfl
    | ⟨1, _⟩ => rfl
    | ⟨2, _⟩ => rfl)
  have er : ridx_main_v19 i c = ix2 (i 2) c := funext fun a => Fin.ext (by
    match a with
    | ⟨0, _⟩ => rfl
    | ⟨1, _⟩ => rfl)
  rw [el, er]
  rfl

end Cert.ReferenceIdeal.RefValue

end
-- ==== Proof.lean ====
/-
  A sparse linear layer: `out[b, l, o] = Σ_c x[b, l, c] · W[o, c]`, where the dense 1024 × 1024 matrix `W` is the
  scatter-add of 131072 (row, column, value) triples into a zero matrix (duplicate positions sum).

  Both programs build `W` by the same scatter-add of the same arguments.  The reference contracts the activations'
  channel axis against `W`'s input-channel axis directly.  The kernel program transposes `W`, flattens the
  activations' batch and position axes into 16384 rows, multiplies rows by columns in sixteen blocks of 1024 rows (each
  block's operands narrowed to bf16 on the way in — the identity on the extended reals — and summed into a zero
  accumulator), and un-flattens.  Row `b · 4096 + l` of the flattened activations is `x[b, l, ·]` and column `o` of the
  transpose is `W[o, ·]`, so at every index the two results are the SAME sum of the same products in the same order:
  no law of the extended reals beyond `0 + s = s` is used, and the finiteness of the inputs is never needed.

  The idealization rewrote nothing, so the kernel's idealized program is its own text read at the extended reals.
  The three programs terminate without a fault and leave their arguments unchanged (the frames).
-/
import proofs.«125782_j52518860095721_1_alg».proof.Defs
import proofs.«125782_j52518860095721_1_alg».proof.Proof.Gen.Kernel
import proofs.«125782_j52518860095721_1_alg».proof.Proof.Gen.Kernel.Skeleton
import proofs.«125782_j52518860095721_1_alg».proof.Proof.Gen.Kernel.Launch
import proofs.«125782_j52518860095721_1_alg».proof.Proof.Gen.Kernel.Points
import proofs.«125782_j52518860095721_1_alg».proof.Proof.Gen.Kernel.Frame
import proofs.«125782_j52518860095721_1_alg».proof.Proof.Gen.KernelIdeal
import proofs.«125782_j52518860095721_1_alg».proof.Proof.Gen.KernelIdeal.Skeleton
import proofs.«125782_j52518860095721_1_alg».proof.Proof.Gen.KernelIdeal.Launch
import proofs.«125782_j52518860095721_1_alg».proof.Proof.Gen.KernelIdeal.Points
import proofs.«125782_j52518860095721_1_alg».proof.Proof.Gen.KernelIdeal.Frame
import proofs.«125782_j52518860095721_1_alg».proof.Proof.Gen.ReferenceIdeal
import proofs.«125782_j52518860095721_1_alg».proof.Proof.Gen.Pre_finite_inputs
import proofs.«125782_j52518860095721_1_alg».proof.Proof.Gen.ReferenceIdeal.Run
import proofs.«125782_j52518860095721_1_alg».proof.Proof.Gen.ReferenceIdeal.Read
import proofs.«125782_j52518860095721_1_alg».proof.Proof.KernelValue
import proofs.«125782_j52518860095721_1_alg».proof.Proof.RefLinear
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the linear layer of the activations and of the dense matrix built from the sparse triples:
    the kernel program by its run read as a value, the reference by its contraction read at an index; the arguments
    agree, so the two values are one. -/
theorem algebraic : Cert.algebraic_KernelIdeal_ReferenceIdeal := by
  intro m ρ m' ρ' _ hagree
  refine ⟨fun c => Cert.KernelIdeal.KernelValue.layer m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
